-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x96 : Shape := ⟨2, ![100000, 96]⟩
abbrev S800000 : Shape := ⟨1, ![800000]⟩
abbrev S192x1024 : Shape := ⟨2, ![192, 1024]⟩
abbrev S1024 : Shape := ⟨1, ![1024]⟩
abbrev S_ : Shape := ⟨0, ![]⟩

class Facts : Prop where
  bcast_S_S100000x96 : S_.BroadcastsInDim S100000x96 (![] : Fin 0 → Fin S100000x96.rank)
  reducesTo_S100000x96_S_d0_1 : S100000x96.ReducesTo [0, 1] S_
  h_S_ : 0 < S_.numel
  bcast_S_S192x1024 : S_.BroadcastsInDim S192x1024 (![] : Fin 0 → Fin S192x1024.rank)
  reducesTo_S192x1024_S_d0_1 : S192x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S100000x96 .f32) (main_arg1 : IVec S800000 32) (main_arg2 : IVec S800000 32) (main_arg3 : FVec F S192x1024 .f32) (main_arg4 : FVec F S1024 .f32) : IVec S_ 1 :=
  let main_v0 : FVec F S100000x96 .f32 := Host.absf main_arg0
  let main_cst : FVec F S_ .f32 := constant S_ .f32 0x7F800000#32
  let main_v1 : FVec F S100000x96 .f32 := broadcastInDim S100000x96 ![] bcast_S_S100000x96 main_cst
  let main_v2 : IVec S100000x96 1 := cmpf .olt main_v0 main_v1
  let main_c : IVec S_ 1 := constantI S_ 1 1#1
  let main_v3 : IVec S_ 1 := (fun x v => Host.reduce IntOp.andi x v reducesTo_S100000x96_S_d0_1 h_S_) main_v2 main_c
  let main_v4 : FVec F S192x1024 .f32 := Host.absf main_arg3
  let main_cst_0 : FVec F S_ .f32 := constant S_ .f32 0x7F800000#32
  let main_v5 : FVec F S192x1024 .f32 := broadcastInDim S192x1024 ![] bcast_S_S192x1024 main_cst_0
  let main_v6 : IVec S192x1024 1 := cmpf .olt main_v4 main_v5
  let main_c_1 : IVec S_ 1 := constantI S_ 1 1#1
  let main_v7 : IVec S_ 1 := (fun x v => Host.reduce IntOp.andi x v reducesTo_S192x1024_S_d0_1 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S100000x96 : Shape := ⟨2, ![100000, 96]⟩
abbrev S800000 : Shape := ⟨1, ![800000]⟩
abbrev S192x1024 : Shape := ⟨2, ![192, 1024]⟩
abbrev S1024 : Shape := ⟨1, ![1024]⟩
abbrev S_ : Shape := ⟨0, ![]⟩
abbrev S800000x1 : Shape := ⟨2, ![800000, 1]⟩
abbrev S800000x96 : Shape := ⟨2, ![800000, 96]⟩
abbrev S100000 : Shape := ⟨1, ![100000]⟩
abbrev S100000x1 : Shape := ⟨2, ![100000, 1]⟩
abbrev S100000x192 : Shape := ⟨2, ![100000, 192]⟩
abbrev S1x1024 : Shape := ⟨2, ![1, 1024]⟩
abbrev S100000x1024 : Shape := ⟨2, ![100000, 1024]⟩
abbrev S2000x192 : Shape := ⟨2, ![2000, 192]⟩
abbrev S2000x1024 : Shape := ⟨2, ![2000, 1024]⟩

abbrev nBuf : Space → Nat
  | .hbm => 39
  | .vmem => 6
  | .smem => 0
  | _ => 0

abbrev bufTy : (tb : Table) → Fin (tcTables nBuf tb) → BufTy
  | .hbm, ⟨0, _⟩ => ⟨S100000x96, .f32⟩
  | .hbm, ⟨1, _⟩ => ⟨S800000, .i32⟩
  | .hbm, ⟨2, _⟩ => ⟨S800000, .i32⟩
  | .hbm, ⟨3, _⟩ => ⟨S192x1024, .f32⟩
  | .hbm, ⟨4, _⟩ => ⟨S1024, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x96, .f32⟩
  | .hbm, ⟨14, _⟩ => ⟨S_, .f32⟩
  | .hbm, ⟨15, _⟩ => ⟨S100000x96, .f32⟩
  | .hbm, ⟨16, _⟩ => ⟨S800000x1, .i32⟩
  | .hbm, ⟨17, _⟩ => ⟨S100000x96, .f32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S100000, .f32⟩
  | .hbm, ⟨22, _⟩ => ⟨S800000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x96, .f32⟩
  | .hbm, ⟨29, _⟩ => ⟨S100000x96, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S100000x1, .i1⟩
  | .hbm, ⟨34, _⟩ => ⟨S100000x96, .i1⟩
  | .hbm, ⟨35, _⟩ => ⟨S100000x96, .f32⟩
  | .hbm, ⟨36, _⟩ => ⟨S100000x192, .f32⟩
  | .hbm, ⟨37, _⟩ => ⟨S1x1024, .f32⟩
  | .hbm, ⟨38, _⟩ => ⟨S100000x1024, .f32⟩
  | .local _ .vmem, ⟨0, _⟩ => ⟨S2000x192, .f32⟩
  | .local _ .vmem, ⟨1, _⟩ => ⟨S2000x192, .f32⟩
  | .local _ .vmem, ⟨2, _⟩ => ⟨S192x1024, .f32⟩
  | .local _ .vmem, ⟨3, _⟩ => ⟨S1x1024, .f32⟩
  | .local _ .vmem, ⟨4, _⟩ => ⟨S2000x1024, .f32⟩
  | .local _ .vmem, ⟨5, _⟩ => ⟨S2000x1024, .f32⟩
  | _, _ => ⟨S100000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x96 : S_.BroadcastsInDim S100000x96 (![] : Fin 0 → Fin S100000x96.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x96_0_1 : S100000x1.BroadcastsInDim S100000x96 (![0, 1] : Fin 2 → Fin S100000x96.rank)
  concatenates_S100000x96_S100000x96_S100000x192_d1 : Shape.Concatenates [S100000x96, S100000x96] S100000x192 1
  shapeCasts_S1024_S1x1024 : S1024.ShapeCasts S1x1024
  inb_S2000x192_S2000x192_0_0 : ∀ a, (![0, 0] : Fin 2 → Nat) a + S2000x192.size a ≤ S2000x192.size a
  h_S2000x192 : 0 < S2000x192.numel
  shapeCasts_S2000x192_S2000x192 : S2000x192.ShapeCasts S2000x192
  bitsLt_bf16_f32 : FTy.bits .bf16 < FTy.bits .f32
  inb_S192x1024_S192x1024_0_0 : ∀ a, (![0, 0] : Fin 2 → Nat) a + S192x1024.size a ≤ S192x1024.size a
  h_S192x1024 : 0 < S192x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  inb_S2000x1024_S2000x1024_0_0 : ∀ a, (![0, 0] : Fin 2 → Nat) a + S2000x1024.size a ≤ S2000x1024.size a
  h_S2000x1024 : 0 < S2000x1024.numel
  gather_S100000x96_S800000x1_S800000x96_1_0_n_n_0_1_196_wf : GatherDims.WF S100000x96 S800000x1 S800000x96 [1] [0] [] [0] [] 1 ![1, 96]
  scatter_S100000x96_S800000x1_S800000x96_1_0_0_1_wf : ScatterDims.WF S100000x96 S800000x1 S800000x96 [1] [0] [0] 1
  scatter_S100000_S800000x1_S800000_n_0_0_1_wf : ScatterDims.WF S100000 S800000x1 S800000 [] [0] [0] 1
  dot_S2000x192_S192x1024_S2000x1024_1_0_0_1_n_n_wf : DotDims.WF S2000x192 S192x1024 S2000x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x192.size a ≤ S100000x192.size a
  hwx0_0 : ∀ i : grid0.Coords, EltTy.bits .f32 = 32 ∨ (Rect.block (s := S100000x192) S2000x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x1024.size a ≤ S192x1024.size a
  hwx0_1 : ∀ i : grid0.Coords, EltTy.bits .f32 = 32 ∨ (Rect.block (s := S192x1024) S192x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1024.size a ≤ S100000x1024.size a
  hwx0_3 : ∀ i : grid0.Coords, EltTy.bits .f32 = 32 ∨ (Rect.block (s := S100000x1024) S2000x1024.size (cc0_transform_3 i) (hinb0_3 i)).WholeWords (EltTy.packing .f32)

variable [Facts₀]

def gather_S100000x96_S800000x1_S800000x96_1_0_n_n_0_1_196 : GatherDims S100000x96 S800000x1 S800000x96 where
  offsetDims := [1]
  collapsedSliceDims := [0]
  operandBatchingDims := []
  startIndicesBatchingDims := []
  startIndexMap := [0]
  indexVectorDim := 1
  sliceSizes := ![1, 96]
  wf := gather_S100000x96_S800000x1_S800000x96_1_0_n_n_0_1_196_wf
def scatter_S100000x96_S800000x1_S800000x96_1_0_0_1 : ScatterDims S100000x96 S800000x1 S800000x96 where
  updateWindowDims := [1]
  insertedWindowDims := [0]
  scatterDimsToOperandDims := [0]
  indexVectorDim := 1
  wf := scatter_S100000x96_S800000x1_S800000x96_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S2000x192_S192x1024_S2000x1024_1_0_0_1_n_n : DotDims S2000x192 S192x1024 S2000x1024 where
  lhsContracting := [1]
  rhsContracting := [0]
  lhsNonContracting := [0]
  rhsNonContracting := [1]
  lhsBatch := []
  rhsBatch := []
  wf := dot_S2000x192_S192x1024_S2000x1024_1_0_0_1_n_n_wf

abbrev win0_0 : Pipeline.Window sig grid0 :=
  Pipeline.Window.ofSpec (Memref.whole main_v23) S2000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S192x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S2000x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x96 : Shape := ⟨2, ![100000, 96]⟩
abbrev S800000 : Shape := ⟨1, ![800000]⟩
abbrev S192x1024 : Shape := ⟨2, ![192, 1024]⟩
abbrev S1024 : Shape := ⟨1, ![1024]⟩
abbrev S_ : Shape := ⟨0, ![]⟩
abbrev S800000x1 : Shape := ⟨2, ![800000, 1]⟩
abbrev S800000x96 : Shape := ⟨2, ![800000, 96]⟩
abbrev S100000 : Shape := ⟨1, ![100000]⟩
abbrev S100000x1 : Shape := ⟨2, ![100000, 1]⟩
abbrev S100000x192 : Shape := ⟨2, ![100000, 192]⟩
abbrev S100000x1024 : Shape := ⟨2, ![100000, 1024]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S100000x96, .f32⟩
  | .hbm, ⟨1, _⟩ => ⟨S800000, .i32⟩
  | .hbm, ⟨2, _⟩ => ⟨S800000, .i32⟩
  | .hbm, ⟨3, _⟩ => ⟨S192x1024, .f32⟩
  | .hbm, ⟨4, _⟩ => ⟨S1024, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x96, .f32⟩
  | .hbm, ⟨14, _⟩ => ⟨S_, .f32⟩
  | .hbm, ⟨15, _⟩ => ⟨S100000x96, .f32⟩
  | .hbm, ⟨16, _⟩ => ⟨S800000x1, .i32⟩
  | .hbm, ⟨17, _⟩ => ⟨S100000x96, .f32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S100000, .f32⟩
  | .hbm, ⟨22, _⟩ => ⟨S800000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x96, .f32⟩
  | .hbm, ⟨29, _⟩ => ⟨S100000x96, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S100000x1, .i1⟩
  | .hbm, ⟨34, _⟩ => ⟨S100000x96, .i1⟩
  | .hbm, ⟨35, _⟩ => ⟨S100000x96, .f32⟩
  | .hbm, ⟨36, _⟩ => ⟨S100000x192, .f32⟩
  | .hbm, ⟨37, _⟩ => ⟨S100000x1024, .f32⟩
  | .hbm, ⟨38, _⟩ => ⟨S1x1024, .f32⟩
  | .hbm, ⟨39, _⟩ => ⟨S100000x1024, .f32⟩
  | .hbm, ⟨40, _⟩ => ⟨S100000x1024, .f32⟩
  | .hbm, ⟨41, _⟩ => ⟨S_, .f32⟩
  | .hbm, ⟨42, _⟩ => ⟨S100000x1024, .f32⟩
  | .hbm, ⟨43, _⟩ => ⟨S100000x1024, .f32⟩
  | _, _ => ⟨S100000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call1_cst : Ref sig .tc := ⟨.hbm, 41, rfl⟩
abbrev main_call1_v0 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x96 : S_.BroadcastsInDim S100000x96 (![] : Fin 0 → Fin S100000x96.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x96_0_1 : S100000x1.BroadcastsInDim S100000x96 (![0, 1] : Fin 2 → Fin S100000x96.rank)
  concatenates_S100000x96_S100000x96_S100000x192_d1 : Shape.Concatenates [S100000x96, S100000x96] S100000x192 1
  bcast_S1024_S1x1024_1 : S1024.BroadcastsInDim S1x1024 (![1] : Fin 1 → Fin S1x1024.rank)
  bcast_S1x1024_S100000x1024_0_1 : S1x1024.BroadcastsInDim S100000x1024 (![0, 1] : Fin 2 → Fin S100000x1024.rank)
  bcast_S_S100000x1024 : S_.BroadcastsInDim S100000x1024 (![] : Fin 0 → Fin S100000x1024.rank)
  gather_S100000x96_S800000x1_S800000x96_1_0_n_n_0_1_196_wf : GatherDims.WF S100000x96 S800000x1 S800000x96 [1] [0] [] [0] [] 1 ![1, 96]
  scatter_S100000x96_S800000x1_S800000x96_1_0_0_1_wf : ScatterDims.WF S100000x96 S800000x1 S800000x96 [1] [0] [0] 1
  scatter_S100000_S800000x1_S800000_n_0_0_1_wf : ScatterDims.WF S100000 S800000x1 S800000 [] [0] [0] 1
  dot_S100000x192_S192x1024_S100000x1024_1_0_0_1_n_n_wf : DotDims.WF S100000x192 S192x1024 S100000x1024 [1] [0] [0] [1] [] []

variable [Facts₀]

def gather_S100000x96_S800000x1_S800000x96_1_0_n_n_0_1_196 : GatherDims S100000x96 S800000x1 S800000x96 where
  offsetDims := [1]
  collapsedSliceDims := [0]
  operandBatchingDims := []
  startIndicesBatchingDims := []
  startIndexMap := [0]
  indexVectorDim := 1
  sliceSizes := ![1, 96]
  wf := gather_S100000x96_S800000x1_S800000x96_1_0_n_n_0_1_196_wf
def scatter_S100000x96_S800000x1_S800000x96_1_0_0_1 : ScatterDims S100000x96 S800000x1 S800000x96 where
  updateWindowDims := [1]
  insertedWindowDims := [0]
  scatterDimsToOperandDims := [0]
  indexVectorDim := 1
  wf := scatter_S100000x96_S800000x1_S800000x96_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x192_S192x1024_S100000x1024_1_0_0_1_n_n : DotDims S100000x192 S192x1024 S100000x1024 where
  lhsContracting := [1]
  rhsContracting := [0]
  lhsNonContracting := [0]
  rhsNonContracting := [1]
  lhsBatch := []
  rhsBatch := []
  wf := dot_S100000x192_S192x1024_S100000x1024_1_0_0_1_n_n_wf

class Facts : Prop extends Facts₀ where

variable [Facts]
-- ==== Proof.Spec.lean ====
/-
  The function both programs compute from the node features once neighbours have been aggregated: a dense layer
  followed by a rectifier. For the feature matrix `h` (one row of 192 numbers per node: the node's own 96 features,
  then the 96 aggregated ones), the weight matrix `W` (192 × 1024) and the bias `b` (1024 numbers), entry (r, c) of
  the result is

      max (∑ k, h[r, k] · W[k, c] + b[c], 0)

  on the extended reals. The sum ranges over the finite set of the 192 feature positions in a commutative monoid, so
  neither the order nor the grouping of its terms matters, and nothing here asks the entries to be finite.
-/
import Idealize.ShloMosaic.PureOps.Ideal
import Idealize.ShloMosaic.Lib.ValueIdx

noncomputable section

namespace Cert.DenseRelu

open Idealize.ShloMosaic Idealize.ShloMosaic.ValueIdx

/-- One entry of the layer from a row of features, a column of weights and one bias entry: the inner product, plus
    the bias, cut off below at the number the zero word denotes. Both programs' entries are stated in this form. -/
def entry (row : Fin 192 → EReal) (col : Fin 192 → EReal) (bias : EReal) : EReal :=
  max ((∑ k : Fin 192, row k * col k) + bias) (Ideal.ofBits .f32 0x00000000#32)

/-- The whole layer: entry (r, c) is `entry` of row r of `h`, column c of `W` and `b c`. -/
def layer (h : FVec Ideal ⟨2, ![100000, 192]⟩ .f32) (W : FVec Ideal ⟨2, ![192, 1024]⟩ .f32)
    (b : FVec Ideal ⟨1, ![1024]⟩ .f32) : FVec Ideal ⟨2, ![100000, 1024]⟩ .f32 :=
  fun i => entry (fun k => h (ix2 (i 0) k)) (fun k => W (ix2 k (i 1))) (b (ix1 (i 1)))

theorem layer_apply (h : FVec Ideal ⟨2, ![100000, 192]⟩ .f32) (W : FVec Ideal ⟨2, ![192, 1024]⟩ .f32)
    (b : FVec Ideal ⟨1, ![1024]⟩ .f32) (r : Fin 100000) (c : Fin 1024) :
    layer h W b (ix2 r c) = entry (fun k => h (ix2 r k)) (fun k => W (ix2 k c)) (b (ix1 c)) := rfl

end Cert.DenseRelu

end
-- ==== Proof.KernelEntry.lean ====
/-
  What the kernel body stores, read at one position of its 2000 × 1024 output block. The body loads a block of 2000
  feature rows, the whole weight matrix and the bias row, narrows the first two (a change of float format: the identity
  on extended reals), multiplies them into a zero accumulator, adds the bias row broadcast down the 2000 rows and takes
  the maximum with a zero splat. Position (p, q) of the product is the inner product of row p of the features with
  column q of the weights — the accumulator's zero word denotes 0 —, so the stored entry is `DenseRelu.entry` of that
  row, that column and entry q of the bias row.
-/
import proofs.«134622_j65635690218035_1_alg».proof.Proof.Gen.KernelIdeal.Skeleton
import proofs.«134622_j65635690218035_1_alg».proof.Proof.Spec
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx

/-- The block product's dimension numbers: rows of the left operand against columns of the right, one contracted
    axis of extent 192. -/
abbrev D := dot_S2000x192_S192x1024_S2000x1024_1_0_0_1_n_n

theorem lhs_row (i : S2000x1024.Idx) (q : D.contr.Idx) : (D.lhsIdx i q 0).val = (i 0).val := by
  unfold DotDims.lhsIdx
  rw [dif_neg (show ¬(0 : Fin S2000x192.rank) ∈ D.lhsBatch by decide), dif_pos (show (0 : Fin S2000x192.rank) ∈ D.lhsNonContracting by decide)]
  rfl
theorem lhs_col (i : S2000x1024.Idx) (q : D.contr.Idx) : (D.lhsIdx i q 1).val = (q ⟨0, by decide⟩).val :=
  D.lhsIdx_val_of_single rfl i q
theorem rhs_row (i : S2000x1024.Idx) (q : D.contr.Idx) : (D.rhsIdx i q 0).val = (q ⟨0, by decide⟩).val :=
  D.rhsIdx_val_of_single rfl i q
theorem rhs_col (i : S2000x1024.Idx) (q : D.contr.Idx) : (D.rhsIdx i q 1).val = (i 1).val := by
  unfold DotDims.rhsIdx
  rw [dif_neg (show ¬(1 : Fin S192x1024.rank) ∈ D.rhsBatch by decide), dif_pos (show (1 : Fin S192x1024.rank) ∈ D.rhsNonContracting by decide)]
  rfl

/-- Position (p, q) of a product into a zero accumulator is the inner product of row p and column q. -/
theorem product_apply (a : FVec Ideal S2000x192 .bf16) (b : FVec Ideal S192x1024 .bf16) (p : Fin 2000) (q : Fin 1024) :
    matmul D none a b (constant (F := Ideal) S2000x1024 .f32 0x00000000#32) (ix2 p q)
      = ∑ k : Fin 192, a (ix2 p k) * b (ix2 k q) := by
  show FloatOps.matmul D none a b (constant (F := Ideal) S2000x1024 .f32 0x00000000#32) (ix2 p q) = _
  rw [Ideal.matmul_constant_zero_apply, ← Equiv.sum_comp (contrEquiv1 D 192 rfl rfl).symm]
  refine Finset.sum_congr rfl fun k _ => ?_
  have hk := contrEquiv1_symm_val D 192 rfl rfl k
  have el : D.lhsIdx (ix2 p q) ((contrEquiv1 D 192 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 192 rfl rfl).symm k) = ix2 k q := funext fun a => Fin.ext (by
    match a with
    | ⟨0, _⟩ => exact (rhs_row _ _).trans hk
    | ⟨1, _⟩ => exact rhs_col _ _)
  rw [el, er]

/-- The bias row broadcast down the block's rows reads, at (p, q), entry (0, q) of the row. -/
theorem bias_rows_apply (x2 : FVec Ideal S1x1024 .f32) (p : Fin 2000) (q : Fin 1024) :
    broadcastTo S2000x1024 (shapeCast S1x1024 x2 shapeCasts_S1x1024_S1x1024) broadcasts_S1x1024_S2000x1024 (ix2 p q)
      = x2 (ix2 0 q) := by
  rw [shapeCast_self]
  exact broadcastTo_apply x2 broadcasts_S1x1024_S2000x1024 (ix2 p q) (ix2 0 q) (fun a => by
    match a with
    | ⟨0, _⟩ => show (0 : Nat) = if (1 : Nat) = 1 then 0 else _; rw [if_pos rfl]
    | ⟨1, _⟩ => show q.val = if (1024 : Nat) = 1 then 0 else q.val; rw [if_neg (by decide)])

/-- THE STORED ENTRY: position (p, q) of what the body stores is the layer's entry of feature row p of the block,
    weight column q and bias entry q. -/
theorem stored_apply (x0 : FVec Ideal S2000x192 .f32) (x1 : FVec Ideal S192x1024 .f32) (x2 : FVec Ideal S1x1024 .f32)
    (p : Fin 2000) (q : Fin 1024) :
    k0_pay1 (F := Ideal) x0 x1 x2 (ix2 p q)
      = DenseRelu.entry (fun k => x0 (ix2 p k)) (fun k => x1 (ix2 k q)) (x2 (ix2 0 q)) := by
  unfold k0_pay1 DenseRelu.entry
  show max (matmul D none (truncf .bf16 (shapeCast S2000x192 x0 shapeCasts_S2000x192_S2000x192) bitsLt_bf16_f32)
        (truncf .bf16 x1 bitsLt_bf16_f32) (constant (F := Ideal) S2000x1024 .f32 0x00000000#32) (ix2 p q)
      + broadcastTo S2000x1024 (shapeCast S1x1024 x2 shapeCasts_S1x1024_S1x1024) broadcasts_S1x1024_S2000x1024 (ix2 p q))
      (Ideal.ofBits .f32 0x00000000#32) = _
  rw [product_apply, bias_rows_apply, shapeCast_self]
  rfl

end Cert.KernelIdeal.Body

end
-- ==== Proof.KernelLayer.lean ====
/-
  The kernel's result array as ONE function of the three arrays its call reads: the feature matrix (100000 × 192), the
  weight matrix (192 × 1024) and the bias as a one-row matrix (1 × 1024).

  The call walks 50 grid points. Point t stages rows 2000·t … 2000·t + 1999 of the feature matrix, the whole weight
  matrix and the whole bias row, and writes back rows 2000·t … 2000·t + 1999 of the result. Entry (p, q) of what it
  writes is the layer's entry of feature row 2000·t + p, weight column q and bias entry q (`Body.stored_apply`), that
  is, the layer's entry (2000·t + p, q): each point writes the layer restricted to its block. Row r of the result lies in
  the block of point r / 2000, so the 50 blocks cover the result array, which therefore ends holding the layer
  everywhere.
-/
import proofs.«134622_j65635690218035_1_alg».proof.Proof.Gen.KernelIdeal.Value
import proofs.«134622_j65635690218035_1_alg».proof.Proof.KernelEntry

noncomputable section

namespace Cert.KernelIdeal.Layer

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The bias as 1024 numbers, read off its one-row matrix. -/
def biasOfRow (x : FVec Ideal S1x1024 .f32) : FVec Ideal ⟨1, ![1024]⟩ .f32 := fun j => x (ix2 0 (j 0))

/-- The layer of the three arrays as the call finds them. -/
def result (c : Dev nD) : FVec Ideal S100000x1024 .f32 :=
  DenseRelu.layer (V m c main_v23) (V m c main_arg3) (biasOfRow (V m c main_v24))

/-- Where each window's block sits at grid point t, decided over the 50 points: the feature block and the result block
    at block row t, everything else at the origin. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 50 := lt_of_lt_of_eq t.isLt N_0

/-- WHAT POINT t WRITES BACK is the layer read through point t's block of the result. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero origin]
  simp only [View.ld_unit_zero (S := S2000x192) origin, View.ld_unit_zero (S := S192x1024) origin,
    View.ld_unit_zero (S := S1x1024) origin]
  obtain ⟨e00, e01, e10, e11, e20, e21, e30, e31⟩ := block_positions t
  have ht := point_lt t
  funext j
  obtain ⟨p, q, rfl⟩ : ∃ (p : Fin 2000) (q : Fin 1024), j = ix2 p q := ⟨j 0, j 1, eq_ix2 j⟩
  have hp := p.isLt
  have hq := q.isLt
  show k0_pay1 (F := Ideal) (iblk m c 0 t) (iblk m c 1 t) (iblk m c 2 t) (ix2 p q)
    = result m c (((cfg0.win 3).blk t).view.emb (ix2 p q))
  refine (Body.stored_apply (iblk m c 0 t) (iblk m c 1 t) (iblk m c 2 t) p q).trans ?_
  -- the array position of entry (p, q) of the block: row 2000·t + p, column q
  have hi : ((cfg0.win 3).blk t).view.emb (ix2 p q) = ix2 (⟨t.val * 2000 + p.val, by omega⟩ : Fin 100000) q := by
    funext a; apply Fin.ext
    match a with
    | ⟨0, _⟩ => show win0_3.index t (0 : Fin 2) * 2000 + 1 * p.val = t.val * 2000 + p.val; omega
    | ⟨1, _⟩ => show win0_3.index t (1 : Fin 2) * 1024 + 1 * q.val = q.val; omega
  rw [hi]
  unfold result
  rw [DenseRelu.layer_apply]
  -- the three blocks read where the result's position says
  have h0 : (fun k : Fin 192 => iblk m c 0 t (ix2 p k))
      = fun k : Fin 192 => V m c main_v23 (ix2 (⟨t.val * 2000 + p.val, by omega⟩ : Fin 100000) k) := funext fun k => by
    have hk := k.isLt
    have e : ((cfg0.win 0).blk t).view.emb (ix2 p k) = ix2 (⟨t.val * 2000 + p.val, by omega⟩ : Fin 100000) k := by
      funext a; apply Fin.ext
      match a with
      | ⟨0, _⟩ => show win0_0.index t (0 : Fin 2) * 2000 + 1 * p.val = t.val * 2000 + p.val; omega
      | ⟨1, _⟩ => show win0_0.index t (1 : Fin 2) * 192 + 1 * k.val = k.val; omega
    show V m c main_v23 (((cfg0.win 0).blk t).view.emb (ix2 p k)) = _
    rw [e]
  have h1 : (fun k : Fin 192 => iblk m c 1 t (ix2 k q)) = fun k : Fin 192 => V m c main_arg3 (ix2 k q) := funext fun k => by
    have hk := k.isLt
    have e : ((cfg0.win 1).blk t).view.emb (ix2 k q) = ix2 k q := by
      funext a; apply Fin.ext
      match a with
      | ⟨0, _⟩ => show win0_1.index t (0 : Fin 2) * 192 + 1 * k.val = k.val; omega
      | ⟨1, _⟩ => show win0_1.index t (1 : Fin 2) * 1024 + 1 * q.val = q.val; omega
    show V m c main_arg3 (((cfg0.win 1).blk t).view.emb (ix2 k q)) = _
    rw [e]
  have h2 : iblk m c 2 t (ix2 0 q) = biasOfRow (V m c main_v24) (ix1 q) := by
    have e : ((cfg0.win 2).blk t).view.emb (ix2 0 q) = ix2 0 q := by
      funext a; apply Fin.ext
      match a with
      | ⟨0, _⟩ => show win0_2.index t (0 : Fin 2) * 1 + 1 * 0 = 0; omega
      | ⟨1, _⟩ => show win0_2.index t (1 : Fin 2) * 1024 + 1 * q.val = q.val; omega
    show V m c main_v24 (((cfg0.win 2).blk t).view.emb (ix2 0 q)) = V m c main_v24 (ix2 0 q)
    rw [e]
  rw [h0, h1, h2]

/-- An index of the result array is in point t's block iff each coordinate is in the block's range on its axis. -/
theorem mem_block (t : Fin cfg0.N) (i : S100000x1024.Idx) :
    i ∈ ((cfg0.win 3).blk t).view.set ↔ ∀ a : Fin 2, win0_3.index t a * S2000x1024.size a ≤ (i a).val
      ∧ (i a).val < win0_3.index t a * S2000x1024.size a + S2000x1024.size a := by
  show i ∈ ((View.whole main_v25).slice (win0_3.rect t)).set ↔ _
  rw [View.set_slice_whole, Rect.mem_set_unit]
  exact Iff.rfl

/-- Every index of the result array is in some point's block: row r in that of point r / 2000. -/
theorem covered (i : S100000x1024.Idx) :
    ∃ t : Fin cfg0.N, (cfg0.win 3).flush t = true ∧ i ∈ ((cfg0.win 3).blk t).view.set := by
  have hi0 : (i 0).val < 100000 := (i 0).isLt
  have hi1 : (i 1).val < 1024 := (i 1).isLt
  obtain ⟨t, ht⟩ : ∃ t : Fin cfg0.N, t.val = (i 0).val / 2000 :=
    ⟨⟨(i 0).val / 2000, by show (i 0).val / 2000 < grid0.N; rw [N_0]; omega⟩, rfl⟩
  obtain ⟨-, -, -, -, -, -, e30, e31⟩ := block_positions t
  refine ⟨t, flush0_3 t, ?_⟩
  rw [mem_block]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 1024 ≤ (i 1).val ∧ (i 1).val < win0_3.index t (1 : Fin 2) * 1024 + 1024
    omega

/-- THE RESULT ARRAY after the run is the layer of the arrays the call found. -/
theorem final (c : Dev nD) : (dats m 0 c).arrAt 3 cfg0.N = result m c :=
  (dats m 0 c).arrAt_eq_of_cover 3 (result m c) (fun t _ => flushed_eq m c t) covered

/-- The kernel's run with its result array named: the layer of the arrays the call found; the arguments unchanged. -/
theorem run : θ_run defs (onTc (τ := τ) (main (F := Ideal))) ⟨m, fun _ => 0, ρ⟩ fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Layer

end
-- ==== Proof.LibHostFold.lean ====
/-
  A general fact about the contents of buffers after a list of host operations (`StableHlo.after`: each operation in turn
  rewrites the buffer it writes and leaves the others): the contents after two lists run one after the other are the
  contents after the second list, started from the contents after the first. It lets a long host prefix be evaluated in
  stretches — the buffers a late stretch reads are looked up in the contents the earlier stretches leave, each stretch
  by itself.
-/
import Idealize.ShloMosaic.Lib.StableHlo.Run

namespace Idealize.ShloMosaic.StableHlo

variable {τ : Topo} {sig : RefSig} {Val : EltTy → Type}

/-- Buffer contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The same for three stretches given as a list of lists, as a program's host prefix is when a called function's
    operations stand between two stretches of the caller's. -/
theorem after_flatten3 (l₁ l₂ l₃ : List (HloOp τ sig Val)) (V : Valuation τ sig Val) :
    after (List.flatten [l₁, l₂, l₃]) V = after l₃ (after l₂ (after l₁ V)) := by
  simp only [List.flatten_cons, List.flatten_nil, List.append_nil, after_append]

end Idealize.ShloMosaic.StableHlo
-- ==== Proof.KernelOperands.lean ====
/-
  What the kernel's call finds in its three operands, in terms of the program's arguments.

  * The feature matrix. Before the call the program runs the same host operations as the reference, on the same
    arguments: gather the source node's features along every edge, add them up per destination node, count the edges per
    destination node, divide the sums by the count (or by one where there is no edge), keep the node's own features where
    the count is zero, and join the node's features with the result. The two programs spell these operations with their
    own copies of the same shapes and dimension records, so the array the call finds is the reference's feature matrix of
    the same arguments. It is carried as that one function and never opened: nothing downstream depends on what a
    gather or a scatter-add does.
    The host prefix is read in stretches (`StableHlo.after_flatten3`): the last stretch joins the node's features — still
    the argument, no operation writes it — with the aggregated ones, which the earlier stretches leave. The selection
    between the averaged and the node's own features sits in a called function, whose operations move values between a
    buffer's own type and the function's declared type; the two types are the same, so each such move is the identity
    (`toBuf_*`, `ofBuf_*`, stated over an arbitrary value so that no large term is ever compared through one).
  * The weights are the argument itself: no host operation writes it.
  * The bias row is the bias argument recast from 1024 numbers to a 1 × 1024 matrix, so entry (0, q) of the row is
    entry q of the argument.
-/
import proofs.«134622_j65635690218035_1_alg».proof.Proof.KernelLayer
import proofs.«134622_j65635690218035_1_alg».proof.Proof.RefReadPatched
import proofs.«134622_j65635690218035_1_alg».proof.Proof.LibHostFold
import Idealize.ShloMosaic.Lib.StableHlo.Run
import Idealize.ShloMosaic.Lib.Pipeline.Value

noncomputable section

namespace Cert.KernelIdeal.Operands

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The called function's moves between a buffer's type and its declared type are the identity -/

theorem toBuf_v22 (v : (⟨S100000x96, .f32⟩ : BufTy).Contents (Elt Ideal)) :
    (TRef.of (sig := sig) (T := ⟨S100000x96, .f32⟩) main_v22).toBuf v = v := rfl
theorem toBuf_mask (v : (⟨S100000x96, .i1⟩ : BufTy).Contents (Elt Ideal)) :
    (TRef.of (sig := sig) (T := ⟨S100000x96, .i1⟩) main_call0_v0).toBuf v = v := rfl
theorem ofBuf_mask (v : (⟨S100000x96, .i1⟩ : BufTy).Contents (Elt Ideal)) :
    (TRef.of (sig := sig) (T := ⟨S100000x96, .i1⟩) main_call0_v0).ofBuf v = v := rfl
theorem ofBuf_v21 (v : (⟨S100000x1, .i1⟩ : BufTy).Contents (Elt Ideal)) :
    (TRef.of (sig := sig) (T := ⟨S100000x1, .i1⟩) main_v21).ofBuf v = v := rfl
theorem ofBuf_v18 (v : (⟨S100000x96, .f32⟩ : BufTy).Contents (Elt Ideal)) :
    (TRef.of (sig := sig) (T := ⟨S100000x96, .f32⟩) main_v18).ofBuf v = v := rfl
theorem ofBuf_arg0 (v : (⟨S100000x96, .f32⟩ : BufTy).Contents (Elt Ideal)) :
    (TRef.of (sig := sig) (T := ⟨S100000x96, .f32⟩) main_arg0).ofBuf v = v := rfl

/-! ## The feature matrix -/

/-- Before the last stretch the node features are still the argument: no operation of the first two stretches writes it. -/
theorem own_features (c : Dev nD) :
    (StableHlo.after (hostOps0_1 (F := Ideal)) (StableHlo.after (hostOps0 (F := Ideal)) (fun b => m (c, b)))
        (Proc.devRef .tc main_arg0) : S100000x96.Idx → EReal)
      = m ((c : Thread nD τ).loc main_arg0) := by
  simp only [hostOps0, hostOps0_1]
  dsimp only [TRef.unary, TRef.ternary]
  after_results_simp

/-- Before the last stretch the aggregated features are the reference's aggregated features of the same arguments. -/
theorem aggregated_features (c : Dev nD) :
    (StableHlo.after (hostOps0_1 (F := Ideal)) (StableHlo.after (hostOps0 (F := Ideal)) (fun b => m (c, b)))
        (Proc.devRef .tc main_v22) : S100000x96.Idx → EReal)
      = Cert.ReferenceIdeal.Read.val_main_v22 (F := Ideal) (m ((c : Thread nD τ).loc main_arg0))
          (m ((c : Thread nD τ).loc main_arg1)) (m ((c : Thread nD τ).loc main_arg2)) := by
  simp only [hostOps0, hostOps0_1]
  dsimp only [TRef.unary, TRef.ternary]
  -- the identity moves are removed while they still wrap only an operation's bound variable
  simp only [toBuf_v22, toBuf_mask, ofBuf_mask, ofBuf_v21, ofBuf_v18, ofBuf_arg0]
  after_results_simp
  rfl

/-- The last stretch joins, along the feature axis, whatever the earlier stretches left in the node-feature buffer and in
    the aggregated-feature buffer. -/
theorem joined (W : Valuation τ sig (Elt Ideal)) (a b : S100000x96.Idx → EReal)
    (hx : W (Proc.devRef .tc main_arg0) = a) (ha : W (Proc.devRef .tc main_v22) = b) :
    (StableHlo.after (hostOps0_2 (F := Ideal)) W (Proc.devRef .tc main_v23) : S100000x192.Idx → EReal)
      = concatenate S100000x192 1 [⟨S100000x96, a⟩, ⟨S100000x96, b⟩] concatenates_S100000x96_S100000x96_S100000x192_d1 := by
  subst hx ha
  simp only [hostOps0_2]
  after_results_simp

/-- The call finds, in its first operand, the reference's feature matrix of the program's first three arguments. -/
theorem features_eq (c : Dev nD) :
    (V m c main_v23 : S100000x192.Idx → EReal)
      = Cert.ReferenceIdeal.Read.val_main_v23 (F := Ideal) (m ((c : Thread nD τ).loc main_arg0))
          (m ((c : Thread nD τ).loc main_arg1)) (m ((c : Thread nD τ).loc main_arg2)) := by
  show StableHlo.after (List.flatten [hostOps0 (F := Ideal), hostOps0_1, hostOps0_2]) (fun b => m (c, b))
    (Proc.devRef .tc main_v23) = _
  rw [after_flatten3]
  refine (joined _ _ _ (own_features m c) (aggregated_features m c)).trans ?_
  rfl

/-! ## The bias row -/

/-- The call finds, in its third operand, the bias argument recast to one row. -/
theorem bias_row_eq (c : Dev nD) :
    (V m c main_v24 : S1x1024.Idx → EReal)
      = shapeCast S1x1024 (m ((c : Thread nD τ).loc main_arg4)) shapeCasts_S1024_S1x1024 := by
  dsimp only [Gen.V]
  simp only [Gen.hostOps0, Gen.hostOps0_1, Gen.hostOps0_2, List.flatten_cons, List.flatten_nil, List.append_nil,
    List.cons_append, List.nil_append]
  after_results_simp
  rfl

/-- Entry (0, q) of that row is entry q of the bias argument. -/
theorem bias_eq (c : Dev nD) : Layer.biasOfRow (V m c main_v24) = m ((c : Thread nD τ).loc main_arg4) := by
  funext j
  unfold Layer.biasOfRow
  rw [bias_row_eq]
  refine (shapeCast_addUnit_apply ![1024] (m ((c : Thread nD τ).loc main_arg4)) shapeCasts_S1024_S1x1024 (ix2 0 (j 0))).trans ?_
  exact congrArg _ (funext fun a => by
    match a with
    | ⟨0, _⟩ => rfl)

/-! ## The kernel's result in terms of the arguments -/

/-- THE KERNEL'S RESULT: the layer of the reference's feature matrix, the weight argument and the bias argument. -/
theorem result_eq (c : Dev nD) :
    Layer.result m c = DenseRelu.layer
      (Cert.ReferenceIdeal.Read.val_main_v23 (F := Ideal) (m ((c : Thread nD τ).loc main_arg0))
        (m ((c : Thread nD τ).loc main_arg1)) (m ((c : Thread nD τ).loc main_arg2)))
      (m ((c : Thread nD τ).loc main_arg3)) (m ((c : Thread nD τ).loc main_arg4)) := by
  unfold Layer.result
  rw [features_eq, bias_eq, V_main_arg3]

/-- The kernel's run with its result array stated over the program's arguments; the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v25) = DenseRelu.layer
        (Cert.ReferenceIdeal.Read.val_main_v23 (F := Ideal) (m ((c : Thread nD τ).loc main_arg0))
          (m ((c : Thread nD τ).loc main_arg1)) (m ((c : Thread nD τ).loc main_arg2)))
        (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_eq m c), (h c).2⟩) (Layer.run m ρ)

end Cert.KernelIdeal.Operands

end
-- ==== Proof.RefLayer.lean ====
/-
  The reference's result as the layer of its own feature matrix. After aggregating neighbours and joining the node's
  features with the aggregated ones, the reference multiplies the 100000 × 192 feature matrix by the weight matrix in one
  product, adds the bias broadcast first to one row and then down all rows, and takes the maximum with a zero splat.
  Entry (r, c) of the product is the inner product of feature row r and weight column c; the two broadcasts read bias
  entry c; the splat reads the number the zero word denotes. So entry (r, c) of the result is `DenseRelu.entry` of that
  row, that column and that bias entry — the layer's entry (r, c). The feature matrix is carried as one array and never
  opened.
-/
import proofs.«134622_j65635690218035_1_alg».proof.Proof.RefReadPatched
import proofs.«134622_j65635690218035_1_alg».proof.Proof.Spec

noncomputable section

namespace Cert.ReferenceIdeal.Layer

open Cert.ReferenceIdeal Cert.ReferenceIdeal.Gen Cert.ReferenceIdeal.Read Idealize.ShloMosaic
open Idealize.ShloMosaic.ValueIdx

/-- THE REFERENCE'S RESULT is the layer of its feature matrix, the weights and the bias. -/
theorem result_eq (x0 : (⟨S100000x96, .f32⟩ : BufTy).Contents (Elt Ideal)) (x1 x2 : (⟨S800000, .i32⟩ : BufTy).Contents (Elt Ideal))
    (x3 : (⟨S192x1024, .f32⟩ : BufTy).Contents (Elt Ideal)) (x4 : (⟨S1024, .f32⟩ : BufTy).Contents (Elt Ideal)) :
    val_main_v28 (F := Ideal) x0 x1 x2 x3 x4 = DenseRelu.layer (val_main_v23 (F := Ideal) x0 x1 x2) x3 x4 := by
  funext i
  obtain ⟨r, c, rfl⟩ : ∃ (r : Fin 100000) (c : Fin 1024), i = ix2 r c := ⟨i 0, i 1, eq_ix2 i⟩
  rw [val_main_v28_apply, val_main_v27_apply, val_main_v24_apply, val_main_v26_apply, val_main_v25_apply,
    val_main_call1_v0_apply, val_main_call1_cst_apply, DenseRelu.layer_apply]
  have el : ∀ k : Fin 192, lidx_main_v24 (ix2 r c) k = ix2 r k := fun k => funext fun a => Fin.ext (by
    match a with
    | ⟨0, _⟩ => rfl
    | ⟨1, _⟩ => rfl)
  have er : ∀ k : Fin 192, ridx_main_v24 (ix2 r c) k = ix2 k c := fun k => funext fun a => Fin.ext (by
    match a with
    | ⟨0, _⟩ => rfl
    | ⟨1, _⟩ => rfl)
  have eb : idx_main_v25 (idx_main_v26 (ix2 r c)) = ix1 c := funext fun a => Fin.ext (by
    match a with
    | ⟨0, _⟩ => rfl)
  simp only [el, er, eb]
  rfl

end Cert.ReferenceIdeal.Layer

end
-- ==== Proof.lean ====
/-
  A graph layer: every node averages the features of its in-neighbours (its own features where it has none), the
  node's 96 features are joined with the 96 averaged ones, and a dense layer with a rectifier maps the 192 numbers to
  1024: result[r, c] = max (∑ k, h[r, k] · W[k, c] + b[c], 0).

  The kernel program and the reference compute the joined feature matrix `h` by the same host operations on the same
  arguments; they differ in how the dense layer is carried out. The reference forms one 100000 × 192 by 192 × 1024
  product on the host, adds the bias broadcast over the rows and takes the maximum with zero. The kernel walks the rows
  in 50 blocks of 2000: for each block it multiplies the block's 2000 feature rows by the whole weight matrix into a
  zero accumulator (after narrowing both operands to a shorter float format, which changes nothing on extended reals),
  adds the bias row and takes the maximum with zero. On the extended reals an entry of either product is the same finite
  sum ∑ k, h[r, k] · W[k, c] — a zero accumulator adds nothing, and a sum over a finite index set in a commutative monoid
  does not depend on how it is arranged —, so both programs end with `DenseRelu.layer h W b` (Proof/Spec.lean). No step
  uses that the inputs are finite.

    Spec            the layer as one function of h, W, b
    KernelEntry     what the kernel body stores at one position of its block
    KernelLayer     the blocks the 50 grid points write back are the layer read through each block; they cover the result
    KernelOperands  the arrays the call finds: the reference's feature matrix, the weight argument, the bias argument as a row
    RefLayer        the reference's result is the layer of its feature matrix, the weights and the bias
    LibHostFold     buffer contents after a concatenation of host operation lists

  The three frames: the two kernel programs' are the generated frame certificates; the reference's is its run with the
  result forgotten. The kernel's idealization rewrote no operation, so there is nothing to preserve beyond the program
  text itself.
-/
import proofs.«134622_j65635690218035_1_alg».proof.Defs
import proofs.«134622_j65635690218035_1_alg».proof.Proof.Gen.Kernel
import proofs.«134622_j65635690218035_1_alg».proof.Proof.Gen.Kernel.Skeleton
import proofs.«134622_j65635690218035_1_alg».proof.Proof.Gen.Kernel.Launch
import proofs.«134622_j65635690218035_1_alg».proof.Proof.Gen.Kernel.Points
import proofs.«134622_j65635690218035_1_alg».proof.Proof.Gen.Kernel.Frame
import proofs.«134622_j65635690218035_1_alg».proof.Proof.Gen.KernelIdeal
import proofs.«134622_j65635690218035_1_alg».proof.Proof.Gen.KernelIdeal.Skeleton
import proofs.«134622_j65635690218035_1_alg».proof.Proof.Gen.KernelIdeal.Launch
import proofs.«134622_j65635690218035_1_alg».proof.Proof.Gen.KernelIdeal.Points
import proofs.«134622_j65635690218035_1_alg».proof.Proof.Gen.KernelIdeal.Frame
import proofs.«134622_j65635690218035_1_alg».proof.Proof.Gen.ReferenceIdeal
import proofs.«134622_j65635690218035_1_alg».proof.Proof.Gen.Pre_finite_inputs
import proofs.«134622_j65635690218035_1_alg».proof.Proof.Gen.KernelIdeal.Value
import proofs.«134622_j65635690218035_1_alg».proof.Proof.RefRunPatched
import proofs.«134622_j65635690218035_1_alg».proof.Proof.RefReadPatched
import proofs.«134622_j65635690218035_1_alg».proof.Proof.KernelOperands
import proofs.«134622_j65635690218035_1_alg».proof.Proof.RefLayer
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments unchanged. -/
theorem frame_kernel : Cert.frame_Kernel := fun m ρ _ => Cert.Kernel.Gen.frame m ρ

/-- So does the kernel program read on extended reals. -/
theorem frame_kernel_ideal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, the kernel program's result array and the reference's are both the
    layer of the reference's feature matrix of the first three arguments, the weight argument and the bias argument. -/
theorem algebraic : Cert.algebraic_KernelIdeal_ReferenceIdeal := by
  intro m ρ m' ρ' _ hagree
  refine ⟨_, Cert.KernelIdeal.Operands.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v28_eq _ _ _ _ _).trans ?_
  rw [Cert.ReferenceIdeal.Layer.result_eq, (hagree c).1, (hagree c).2.1, (hagree c).2.2.1, (hagree c).2.2.2.1,
    (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
